-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S50000x1 : Shape := ⟨2, ![50000, 1]⟩
abbrev S460x128 : Shape := ⟨2, ![460, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S460x128 : S_.BroadcastsInDim S460x128 (![] : Fin 0 → Fin S460x128.rank)
  reducesTo_S460x128_S_d0_1 : S460x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg8 : FVec F S128x128 .f32) (main_arg9 : FVec F S128x128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S640000 32) (main_arg2 : IVec S640000 32) (main_arg3 : IVec S640000 32) (main_arg4 : IVec S640000 32) (main_arg5 : FVec F S50000x1 .f32) (main_arg6 : FVec F S460x128 .f32) (main_arg7 : FVec F S128x128 .f32) (main_arg8 : FVec F S128x128 .f32) (main_arg9 : FVec F S128x128 .f32) (main_arg10 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg5
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S460x128 .f32 := Host.absf main_arg6
  let main_cst_2 : FVec F S_ .f32 := constant S_ .f32 0x7F800000#32
  let main_v10 : FVec F S460x128 .f32 := broadcastInDim S460x128 ![] bcast_S_S460x128 main_cst_2
  let main_v11 : IVec S460x128 1 := cmpf .olt main_v9 main_v10
  let main_c_3 : IVec S_ 1 := constantI S_ 1 1#1
  let main_v12 : IVec S_ 1 := (fun x v => Host.reduce IntOp.andi x v reducesTo_S460x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg8 main_arg9 main_arg10 main_v13 main_v16
-- ==== Kernel.lean ====
abbrev S50000x128 : Shape := ⟨2, ![50000, 128]⟩
abbrev S640000 : Shape := ⟨1, ![640000]⟩
abbrev S50000x1 : Shape := ⟨2, ![50000, 1]⟩
abbrev S460x128 : Shape := ⟨2, ![460, 128]⟩
abbrev S128x128 : Shape := ⟨2, ![128, 128]⟩
abbrev S_ : Shape := ⟨0, ![]⟩
abbrev S50000 : Shape := ⟨1, ![50000]⟩
abbrev S640000x1 : Shape := ⟨2, ![640000, 1]⟩
abbrev S640000x128 : Shape := ⟨2, ![640000, 128]⟩
abbrev S2000x128 : Shape := ⟨2, ![2000, 128]⟩
abbrev S2000x1 : Shape := ⟨2, ![2000, 1]⟩

abbrev nBuf : Space → Nat
  | .hbm => 68
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000, .i32⟩
  | .hbm, ⟨4, _⟩ => ⟨S640000, .i32⟩
  | .hbm, ⟨5, _⟩ => ⟨S50000x1, .f32⟩
  | .hbm, ⟨6, _⟩ => ⟨S460x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S50000, .f32⟩
  | .hbm, ⟨13, _⟩ => ⟨S_, .f32⟩
  | .hbm, ⟨14, _⟩ => ⟨S640000, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S50000x1, .f32⟩
  | .hbm, ⟨29, _⟩ => ⟨S50000x128, .bf16⟩
  | .hbm, ⟨30, _⟩ => ⟨S460x128, .bf16⟩
  | .hbm, ⟨31, _⟩ => ⟨S128x128, .bf16⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .bf16⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .bf16⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .bf16⟩
  | .hbm, ⟨59, _⟩ => ⟨S128x128, .bf16⟩
  | .hbm, ⟨60, _⟩ => ⟨S640000x128, .f32⟩
  | .hbm, ⟨61, _⟩ => ⟨S_, .f32⟩
  | .hbm, ⟨62, _⟩ => ⟨S50000x128, .f32⟩
  | .hbm, ⟨63, _⟩ => ⟨S640000x1, .i32⟩
  | .hbm, ⟨64, _⟩ => ⟨S50000x128, .f32⟩
  | .hbm, ⟨65, _⟩ => ⟨S128x128, .bf16⟩
  | .hbm, ⟨66, _⟩ => ⟨S128x128, .bf16⟩
  | .hbm, ⟨67, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S2000x128, .bf16⟩
  | .local _ .vmem, ⟨5, _⟩ => ⟨S2000x128, .bf16⟩
  | .local _ .vmem, ⟨6, _⟩ => ⟨S128x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S128x128, .bf16⟩
  | .local _ .vmem, ⟨18, _⟩ => ⟨S128x128, .bf16⟩
  | .local _ .vmem, ⟨19, _⟩ => ⟨S2000x128, .f32⟩
  | .local _ .vmem, ⟨20, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S50000 : S_.BroadcastsInDim S50000 (![] : Fin 0 → Fin S50000.rank)
  bcast_S_S640000 : S_.BroadcastsInDim S640000 (![] : Fin 0 → Fin S640000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50000x128 : S_.BroadcastsInDim S50000x128 (![] : Fin 0 → Fin S50000x128.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  gather_S460x128_S640000x1_S640000x128_1_0_n_n_0_1_1128_wf : GatherDims.WF S460x128 S640000x1 S640000x128 [1] [0] [] [0] [] 1 ![1, 128]
  gather_S128x128_S640000x1_S640000x128_1_0_n_n_0_1_1128_wf : GatherDims.WF S128x128 S640000x1 S640000x128 [1] [0] [] [0] [] 1 ![1, 128]
  dot_S2000x128_S128x128_S2000x128_1_0_0_1_n_n_wf : DotDims.WF S2000x128 S128x128 S2000x128 [1] [0] [0] [1] [] []
  scatter_S50000x128_S640000x1_S640000x128_1_0_0_1_wf : ScatterDims.WF S50000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S640000x128.size a
  hwx0_0 : ∀ i : grid0.Coords, EltTy.bits .bf16 = 32 ∨ (Rect.block (s := S640000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S640000x128.size a
  hwx0_1 : ∀ i : grid0.Coords, EltTy.bits .bf16 = 32 ∨ (Rect.block (s := S640000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S640000x128.size a
  hwx0_2 : ∀ i : grid0.Coords, EltTy.bits .bf16 = 32 ∨ (Rect.block (s := S640000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S640000x128.size a
  hwx0_4 : ∀ i : grid0.Coords, EltTy.bits .f32 = 32 ∨ (Rect.block (s := S640000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S460x128_S640000x1_S640000x128_1_0_n_n_0_1_1128 : GatherDims S460x128 S640000x1 S640000x128 where
  offsetDims := [1]
  collapsedSliceDims := [0]
  operandBatchingDims := []
  startIndicesBatchingDims := []
  startIndexMap := [0]
  indexVectorDim := 1
  sliceSizes := ![1, 128]
  wf := gather_S460x128_S640000x1_S640000x128_1_0_n_n_0_1_1128_wf
def gather_S128x128_S640000x1_S640000x128_1_0_n_n_0_1_1128 : GatherDims S128x128 S640000x1 S640000x128 where
  offsetDims := [1]
  collapsedSliceDims := [0]
  operandBatchingDims := []
  startIndicesBatchingDims := []
  startIndexMap := [0]
  indexVectorDim := 1
  sliceSizes := ![1, 128]
  wf := gather_S128x128_S640000x1_S640000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S640000 : Shape := ⟨1, ![640000]⟩
abbrev S50000x1 : Shape := ⟨2, ![50000, 1]⟩
abbrev S460x128 : Shape := ⟨2, ![460, 128]⟩
abbrev S128x128 : Shape := ⟨2, ![128, 128]⟩
abbrev S_ : Shape := ⟨0, ![]⟩
abbrev S50000 : Shape := ⟨1, ![50000]⟩
abbrev S640000x1 : Shape := ⟨2, ![640000, 1]⟩
abbrev S640000x128 : Shape := ⟨2, ![640000, 128]⟩

abbrev nBuf : Space → Nat
  | .hbm => 76
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000, .i32⟩
  | .hbm, ⟨4, _⟩ => ⟨S640000, .i32⟩
  | .hbm, ⟨5, _⟩ => ⟨S50000x1, .f32⟩
  | .hbm, ⟨6, _⟩ => ⟨S460x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S_, .f32⟩
  | .hbm, ⟨12, _⟩ => ⟨S50000, .f32⟩
  | .hbm, ⟨13, _⟩ => ⟨S_, .f32⟩
  | .hbm, ⟨14, _⟩ => ⟨S640000, .f32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000x1, .i1⟩
  | .hbm, ⟨28, _⟩ => ⟨S50000x128, .f32⟩
  | .hbm, ⟨29, _⟩ => ⟨S50000x128, .f32⟩
  | .hbm, ⟨30, _⟩ => ⟨S50000x128, .i1⟩
  | .hbm, ⟨31, _⟩ => ⟨S50000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S640000x128, .f32⟩
  | .hbm, ⟨60, _⟩ => ⟨S640000x128, .f32⟩
  | .hbm, ⟨61, _⟩ => ⟨S640000x128, .f32⟩
  | .hbm, ⟨62, _⟩ => ⟨S_, .f32⟩
  | .hbm, ⟨63, _⟩ => ⟨S50000x128, .f32⟩
  | .hbm, ⟨64, _⟩ => ⟨S640000x1, .i32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call0_v0 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_cst_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S_S640000 : S_.BroadcastsInDim S640000 (![] : Fin 0 → Fin S640000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  gather_S460x128_S640000x1_S640000x128_1_0_n_n_0_1_1128_wf : GatherDims.WF S460x128 S640000x1 S640000x128 [1] [0] [] [0] [] 1 ![1, 128]
  gather_S128x128_S640000x1_S640000x128_1_0_n_n_0_1_1128_wf : GatherDims.WF S128x128 S640000x1 S640000x128 [1] [0] [] [0] [] 1 ![1, 128]
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def gather_S460x128_S640000x1_S640000x128_1_0_n_n_0_1_1128 : GatherDims S460x128 S640000x1 S640000x128 where
  offsetDims := [1]
  collapsedSliceDims := [0]
  operandBatchingDims := []
  startIndicesBatchingDims := []
  startIndexMap := [0]
  indexVectorDim := 1
  sliceSizes := ![1, 128]
  wf := gather_S460x128_S640000x1_S640000x128_1_0_n_n_0_1_1128_wf
def gather_S128x128_S640000x1_S640000x128_1_0_n_n_0_1_1128 : GatherDims S128x128 S640000x1 S640000x128 where
  offsetDims := [1]
  collapsedSliceDims := [0]
  operandBatchingDims := []
  startIndicesBatchingDims := []
  startIndexMap := [0]
  indexVectorDim := 1
  sliceSizes := ![1, 128]
  wf := gather_S128x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.KernelRun.lean ====
/-
  The kernel program's run, with its result named.

  Every weakly fair execution of the kernel program's @main from any launch memory terminates, nothing faulting, with
  the eleven argument arrays as launched and the result buffer holding what the second region's write-backs leave in
  its output window's array — the fold of the 25 points' blocks over the contents that region was entered with
  (`Dat.arrAt`). The program is four segments in order — the host operations before the first region, the first region,
  the host operations between the regions, the second region — chained through the contents of the unscoped buffers at
  each boundary; the result buffer is the second region's output array, so at the last boundary it holds that fold.
-/
import proofs.«166148_j63471026700598_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the second region's folded write-backs over its entry contents, the arguments
    as launched. -/
theorem run_out : θ_run defs (onTc (τ := τ) (main (F := F))) ⟨m, fun _ => 0, ρ⟩ (fun r => ∀ c : Dev nD,
      r.2.mem ((c.tc : Thread nD τ).loc main_v44) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v44 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.RunOut

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«166148_j63471026700598_1_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.LibFlagBlend.lean ====
/-
  A blend by the number of a one-bit flag is the selection by the flag, on the extended reals.

  A one-bit flag `c` converts (read unsigned) to the number `m ∈ {0, 1}`. For EVERY pair of extended reals `a`, `b`, the
  infinities included,
      m * a + (1 - m) * b  =  if c is set then a else b :
  `0 * x = 0` and `x + 0 = x` hold throughout the extended reals, and `1 - 1 = 0`, `1 - 0 = 1` are computations in the
  reals; so no finiteness is asked of `a`, `b`. The `1` of the blend is the f32 word `0x3F800000`, which denotes the real
  number one (`ofBits_one`). What a kernel that writes `jnp.where(mask, a, b)` as `m * a + (1.0 - m) * b` over the mask
  converted to a float needs to rejoin a reference's `where`.
-/
import Idealize.ShloMosaic.PureOps.Ideal.Laws

noncomputable section

namespace Cert.Lib.FlagBlend

open Idealize.ShloMosaic

/-- The f32 word `0x3F800000` (sign 0, exponent 127, fraction 0) denotes the real number one. -/
theorem ofBits_one : Ideal.ofBits .f32 0x3F800000#32 = 1 := by
  simp [Ideal.ofBits, Ideal.ieee]
  rw [← EReal.coe_mul]
  norm_num

/-- A one-bit flag read as an unsigned integer is `0` or `1`; with `m` that number, `m · a + (1 − m) · b` is `a` when
    the flag is set and `b` when it is not, for all extended reals `a`, `b`. -/
theorem blend_eq_select (c : BitVec 1) (a b : EReal) :
    ((c.toNat : ℝ) : EReal) * a + (Ideal.ofBits .f32 0x3F800000#32 - ((c.toNat : ℝ) : EReal)) * b
      = Scalar.select c a b := by
  rw [ofBits_one]
  have h11 : (1 : EReal) - 1 = 0 := by
    rw [← EReal.coe_one, ← EReal.coe_sub, sub_self, EReal.coe_zero]
  rcases BitVec.eq_zero_or_eq_one c with h | h <;> subst h
  · simp [Scalar.select]
  · simp [Scalar.select, h11]

end Cert.Lib.FlagBlend

end
-- ==== Proof.Blend.lean ====
/-
  One entry of the layer's output, on the extended reals.

  Entry `(n, j)` of the layer's output is the activation of `agg * norm + loop`: `agg` the aggregated neighbour message at
  the entry, `norm` the node's norm, `loop` the self-loop candidate the node's in-degree flag selects — `lw` (the node has
  an incoming edge) or `ew` (it has none). The activation is the leaky rectifier: `x` where `x ≥ 0`, else `x` times the
  slope. The zero compared against and the slope are kept as the f32 words `0x00000000` and `0x3E6AAAAB`: the two programs
  carry the same words, so neither is ever evaluated.
-/
import proofs.«166148_j63471026700598_1_alg».proof.Proof.LibFlagBlend

noncomputable section

namespace Cert.Rgcn.Blend

open Idealize.ShloMosaic

/-- The activation of one entry: `x` itself where `x ≥ 0`, else `x` times the slope word. -/
def act (x : Ideal .f32) : Ideal .f32 :=
  Scalar.select (FloatOps.cmpf .oge x (FloatOps.ofBits (F := Ideal) .f32 0x00000000#32)) x
    (FloatOps.mulf x (FloatOps.ofBits (F := Ideal) .f32 0x3E6AAAAB#32))

/-- One entry of the layer's output: the aggregated neighbour message `agg` scaled by the node's norm, plus the self-loop
    candidate the node's flag `c` selects, through the activation. -/
def node (agg nrm : Ideal .f32) (c : BitVec 1) (lw ew : Ideal .f32) : Ideal .f32 :=
  act (FloatOps.addf (FloatOps.mulf agg nrm) (Scalar.select c lw ew))

end Cert.Rgcn.Blend

end
-- ==== Proof.NodePayload.lean ====
/-
  The two kernel bodies read at one entry, on the extended reals.

  The message kernel's body stores, for its block of 2000 edges, the product of the rows `hsrc + rel * time` with the
  128×128 weight, accumulated from zero. At entry `(p, q)` of the block that is `∑ k, (hsrc + rel * time)(p, k) * w (k, q)`,
  which is entry `(P, q)` of the ONE product of the whole 640000×128 array `G1 + G2 * G3` with the weight whenever row `p`
  of each loaded block is row `P` of the corresponding whole array: the changes of float format around the product are
  the identity on the extended reals, and the sum is the same sum term by term.

  The node kernel's body stores, for its block of 2000 nodes, `act (agg * norm + (m * (h · LW) + (1 - m) * (h · EW)))` with
  `norm` and `m` columns repeated along the row. At entry `(p, q)`, when `m` at row `p` is the number of a one-bit flag
  `c`, the blend is the selection by `c` (LibFlagBlend.lean), and each product of the block's rows is the entry `(P, q)` of the
  whole product `H · LW`, `H · EW` when row `p` of the block is row `P` of `H`.
-/
import proofs.«166148_j63471026700598_1_alg».proof.Proof.Gen.KernelIdeal.Skeleton
import proofs.«166148_j63471026700598_1_alg».proof.Proof.LibKeepdims
import proofs.«166148_j63471026700598_1_alg».proof.Proof.LibRowBlock
import proofs.«166148_j63471026700598_1_alg».proof.Proof.Blend
import Idealize.ShloMosaic.Lib.ValueIdx
import Idealize.ShloMosaic.Lib.Pipeline.Value

noncomputable section

namespace Cert.KernelIdeal.NodePayload

open Cert.KernelIdeal Cert.KernelIdeal.Gen Idealize.ShloMosaic Idealize.ShloMosaic.ValueIdx Cert.Rgcn

/-- The message kernel's stored value at entry `(p, q)` of a block whose row `p` is row `P` of the gathered arrays. -/
theorem msg_entry (v0 v3 v6 : Vec Ideal S2000x128 .bf16) (v12 : Vec Ideal S128x128 .bf16)
    (G1 G2 G3 : FVec Ideal ⟨2, ![640000, 128]⟩ .f32) (W : FVec Ideal ⟨2, ![128, 128]⟩ .f32)
    (P : Fin 640000) (p : Fin 2000) (q : Fin 128)
    (h0 : ∀ k : Fin 128, (v0 (ix2 p k) : EReal) = G1 (ix2 P k))
    (h3 : ∀ k : Fin 128, (v3 (ix2 p k) : EReal) = G2 (ix2 P k))
    (h6 : ∀ k : Fin 128, (v6 (ix2 p k) : EReal) = G3 (ix2 P k))
    (hw : ∀ k : Fin 128, (v12 (ix2 k q) : EReal) = W (ix2 k q)) :
    k0_pay1 (F := Ideal) v0 v3 v6 v12 (ix2 p q)
      = FloatOps.dotGeneral (DotDims.plain 640000 128 128) none .single (addf G1 (mulf G2 G3)) W (ix2 P q) := by
  unfold k0_pay1
  rw [shapeCast_self v0, shapeCast_self v3, shapeCast_self v6, shapeCast_self v12]
  refine Cert.Lib.RowBlock.matmul_eq_dotGeneral none none .single (addf G1 (mulf G2 G3)) W _ v12 P p q (fun k => ?_) hw
  show (v0 (ix2 p k) : EReal) + v3 (ix2 p k) * v6 (ix2 p k) = G1 (ix2 P k) + G2 (ix2 P k) * G3 (ix2 P k)
  rw [h0 k, h3 k, h6 k]

/-- The node kernel's stored value at entry `(p, q)` of a block whose row `p` is row `P` of the node features, when the
    mask at row `p` is the number of the flag `c`. -/
theorem node_entry (v0 : Vec Ideal S2000x128 .f32) (v2 v5 : Vec Ideal S128x128 .bf16) (v8 : Vec Ideal S2000x1 .f32)
    (v17 : Vec Ideal S2000x128 .f32) (v19 : Vec Ideal S2000x1 .f32)
    (H : FVec Ideal ⟨2, ![50000, 128]⟩ .f32) (LW EW : FVec Ideal ⟨2, ![128, 128]⟩ .f32)
    (P : Fin 50000) (p : Fin 2000) (q : Fin 128) (agg nrm : EReal) (c : BitVec 1)
    (h0 : ∀ k : Fin 128, (v0 (ix2 p k) : EReal) = H (ix2 P k))
    (h2 : ∀ k : Fin 128, (v2 (ix2 k q) : EReal) = LW (ix2 k q))
    (h5 : ∀ k : Fin 128, (v5 (ix2 k q) : EReal) = EW (ix2 k q))
    (hm : (v8 (ix2 p (0 : Fin 1)) : EReal) = ((c.toNat : ℝ) : EReal))
    (hagg : (v17 (ix2 p q) : EReal) = agg) (hnrm : (v19 (ix2 p (0 : Fin 1)) : EReal) = nrm) :
    k1_pay1 (F := Ideal) v0 v2 v5 v8 v17 v19 (ix2 p q)
      = Blend.node agg nrm c
          (FloatOps.dotGeneral (DotDims.plain 50000 128 128) none .single H LW (ix2 P q))
          (FloatOps.dotGeneral (DotDims.plain 50000 128 128) none .single H EW (ix2 P q)) := by
  have hlw : matmul dot_S2000x128_S128x128_S2000x128_1_0_0_1_n_n none (truncf .bf16 v0 bitsLt_bf16_f32)
      (shapeCast S128x128 v2 shapeCasts_S128x128_S128x128 : FVec Ideal S128x128 .bf16) (constant S2000x128 .f32 0x00000000#32) (ix2 p q)
      = FloatOps.dotGeneral (DotDims.plain 50000 128 128) none .single H LW (ix2 P q) := by
    rw [shapeCast_self v2]
    exact Cert.Lib.RowBlock.matmul_eq_dotGeneral none none .single H LW _ v2 P p q h0 h2
  have hew : matmul dot_S2000x128_S128x128_S2000x128_1_0_0_1_n_n none (truncf .bf16 v0 bitsLt_bf16_f32)
      (shapeCast S128x128 v5 shapeCasts_S128x128_S128x128 : FVec Ideal S128x128 .bf16) (constant S2000x128 .f32 0x00000000#32) (ix2 p q)
      = FloatOps.dotGeneral (DotDims.plain 50000 128 128) none .single H EW (ix2 P q) := by
    rw [shapeCast_self v5]
    exact Cert.Lib.RowBlock.matmul_eq_dotGeneral none none .single H EW _ v5 P p q h0 h5
  unfold k1_pay1
  simp only [select, cmpf, mulf, addf, subf, broadcast]
  rw [shapeCast_self v17, shapeCast_self v8]
  simp only [ValueKeepdims.broadcastTo_a1_ab_apply, subf, broadcast]
  rw [hlw, hew, hagg, hnrm, hm]
  have hb := Cert.Lib.FlagBlend.blend_eq_select c
    (FloatOps.dotGeneral (DotDims.plain 50000 128 128) none .single H LW (ix2 P q))
    (FloatOps.dotGeneral (DotDims.plain 50000 128 128) none .single H EW (ix2 P q))
  unfold Blend.node Blend.act
  rw [← hb]
  rfl

end Cert.KernelIdeal.NodePayload

end
-- ==== Proof.NodeValue.lean ====
/-
  The output array: what the second kernel region leaves in its output, as one function of the arrays it found.

  The region's 25 grid points each handle 2000 consecutive nodes: point `t` loads rows `2000 t … 2000 t + 1999` of the
  node features, of the aggregated messages, of the norm column and of the mask column, and the two whole 128×128
  weights, and writes back rows `2000 t … 2000 t + 1999` of the output. So entry `(p, q)` of point `t`'s block is entry
  `(2000 t + p, q)` of the arrays, the blocks tile the output, and by NodePayload's `node_entry` the output ends, at
  `(n, j)`, as `Blend.node` of the aggregated message at `(n, j)`, the norm of `n`, the flag of `n` and the two whole
  products at `(n, j)` — provided the mask column holds, at each row `n`, the number (0 or 1) of a one-bit flag of `n`.
  Stated at any contents `V` of the buffers at the region's entry.
-/
import proofs.«166148_j63471026700598_1_alg».proof.Proof.Gen.KernelIdeal.Frame
import proofs.«166148_j63471026700598_1_alg».proof.Proof.NodePayload

set_option maxRecDepth 16384

noncomputable section

namespace Cert.KernelIdeal.NodeValue

open Cert.KernelIdeal Cert.KernelIdeal.Gen Idealize.ShloMosaic Idealize.ShloMosaic.TcCoe Idealize.ShloMosaic.ValueIdx
open Idealize.SL.Sem Cert.Rgcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer's output at node `n`, feature `j`. -/
def nodeAt (h agg : FVec Ideal ⟨2, ![50000, 128]⟩ .f32) (nrm : FVec Ideal ⟨2, ![50000, 1]⟩ .f32)
    (flag : IVec ⟨1, ![50000]⟩ 1) (lw ew : FVec Ideal ⟨2, ![128, 128]⟩ .f32) (n : Fin 50000) (j : Fin 128) : Ideal .f32 :=
  Blend.node (agg (ix2 n j)) (nrm (ix2 n (0 : Fin 1))) (flag (ix1 n))
    (FloatOps.dotGeneral (DotDims.plain 50000 128 128) none .single h lw (ix2 n j))
    (FloatOps.dotGeneral (DotDims.plain 50000 128 128) none .single h ew (ix2 n j))

/-- The layer's output as an array. -/
def nodeOf (h agg : FVec Ideal ⟨2, ![50000, 128]⟩ .f32) (nrm : FVec Ideal ⟨2, ![50000, 1]⟩ .f32)
    (flag : IVec ⟨1, ![50000]⟩ 1) (lw ew : FVec Ideal ⟨2, ![128, 128]⟩ .f32) : FVec Ideal ⟨2, ![50000, 128]⟩ .f32 :=
  fun i => nodeAt h agg nrm flag lw ew ⟨(i 0).val, (i 0).isLt⟩ ⟨(i 1).val, (i 1).isLt⟩

/-- The printed index maps over the grid: the node features, the aggregated messages, the two columns and the output
    move by one block of rows per point, the two weights stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Every block of rows of the output is some point's. -/
theorem idx_onto : ∀ q0 : Fin 25, ∃ t : Fin cfg1.N, win1_6.index t = ![q0.val, 0] :=
  (by decide +kernel : ∀ q0 : Fin 25, ∃ t : Fin grid1.N, win1_6.index t = ![q0.val, 0])

/-- What point `t` writes back is block `t` of the output array of the buffers as the region finds them. -/
theorem flushed_node (c : Dev nD) (flag : IVec ⟨1, ![50000]⟩ 1)
    (hmask : ∀ n : Fin 50000, (V c main_v12 (ix2 n (0 : Fin 1)) : EReal) = (((flag (ix1 n)).toNat : ℝ) : EReal))
    (t : Fin cfg1.N) :
    (dat1 V c).flushed 6 t = ((cfg1.win 6).blk t).view.read (Elt Ideal)
      (nodeOf (V c main_arg0) (V c main_v41) (V c main_arg5) flag (V c main_v42) (V c main_v43)) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S2000x1) hz]
  obtain ⟨e00, e01, e10, e11, e20, e21, e30, e31, e40, e41, e50, e51, e60, e61⟩ := idx_facts t
  have ht : t.val < 25 := (show t.val < grid1.N from t.isLt).trans_eq N_1
  funext j
  obtain ⟨p, q, rfl⟩ : ∃ (p : Fin 2000) (q : Fin 128), j = ix2 p q := ⟨j 0, j 1, eq_ix2 j⟩
  have hp : p.val < 2000 := p.isLt
  have hrow : t.val * 2000 + p.val < 50000 := by omega
  have hout : ((cfg1.win 6).blk t).view.emb (ix2 p q) = ix2 (⟨t.val * 2000 + p.val, hrow⟩ : Fin 50000) q := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  show k1_pay1 (iblk1 V c 0 t) (iblk1 V c 4 t) (iblk1 V c 5 t) (iblk1 V c 3 t) (iblk1 V c 1 t) (iblk1 V c 2 t) (ix2 p q)
    = nodeOf (V c main_arg0) (V c main_v41) (V c main_arg5) flag (V c main_v42) (V c main_v43)
        (((cfg1.win 6).blk t).view.emb (ix2 p q))
  rw [hout]
  show _ = nodeAt (V c main_arg0) (V c main_v41) (V c main_arg5) flag (V c main_v42) (V c main_v43)
    (⟨t.val * 2000 + p.val, hrow⟩ : Fin 50000) q
  unfold nodeAt
  refine NodePayload.node_entry _ _ _ _ _ _ _ _ _ (⟨t.val * 2000 + p.val, hrow⟩ : Fin 50000) p q _ _ _
    (fun k => ?_) (fun k => ?_) (fun k => ?_) ?_ ?_ ?_
  · show V c main_arg0 (((cfg1.win 0).blk t).view.emb (ix2 p k)) = V c main_arg0 (ix2 (⟨t.val * 2000 + p.val, hrow⟩ : Fin 50000) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · show V c main_v42 (((cfg1.win 4).blk t).view.emb (ix2 k q)) = V c main_v42 (ix2 k q)
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  · show V c main_v43 (((cfg1.win 5).blk t).view.emb (ix2 k q)) = V c main_v43 (ix2 k q)
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * q.val = q.val; omega
  · have hemb : ((cfg1.win 3).blk t).view.emb (ix2 p (0 : Fin 1)) = ix2 (⟨t.val * 2000 + p.val, hrow⟩ : Fin 50000) (0 : Fin 1) := by
      funext a; apply Fin.ext
      match a with
      | ⟨0, _⟩ => show win1_3.index t (0 : Fin 2) * 2000 + 1 * p.val = t.val * 2000 + p.val; omega
      | ⟨1, _⟩ => show win1_3.index t (1 : Fin 2) * 1 + 1 * 0 = 0; omega
    show V c main_v12 (((cfg1.win 3).blk t).view.emb (ix2 p (0 : Fin 1))) = _
    rw [hemb]
    exact hmask _
  · show V c main_v41 (((cfg1.win 1).blk t).view.emb (ix2 p q)) = V c main_v41 (ix2 (⟨t.val * 2000 + p.val, hrow⟩ : Fin 50000) q)
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * q.val = q.val; omega
  · show V c main_arg5 (((cfg1.win 2).blk t).view.emb (ix2 p (0 : Fin 1))) = V c main_arg5 (ix2 (⟨t.val * 2000 + p.val, hrow⟩ : Fin 50000) (0 : Fin 1))
    refine congrArg _ (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega

/-- An index of the output is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v44).slice (win1_6.rect t)).set ↔ _
  rw [View.set_slice_whole, Rect.mem_set_unit]
  exact Iff.rfl

/-- The blocks tile the output: row `r` is in the block of point `r / 2000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The output array after the region: the layer's output of the buffers as the region found them. -/
theorem final_node (c : Dev nD) (flag : IVec ⟨1, ![50000]⟩ 1)
    (hmask : ∀ n : Fin 50000, (V c main_v12 (ix2 n (0 : Fin 1)) : EReal) = (((flag (ix1 n)).toNat : ℝ) : EReal)) :
    (dat1 V c).arrAt 6 cfg1.N = nodeOf (V c main_arg0) (V c main_v41) (V c main_arg5) flag (V c main_v42) (V c main_v43) :=
  (dat1 V c).arrAt_eq_of_cover 6 _ (fun t _ => flushed_node V c flag hmask t) cover

end Cert.KernelIdeal.NodeValue

end
-- ==== Proof.MsgValue.lean ====
/-
  The message array: what the first kernel region leaves in its output, as one function of the arrays it found.

  The region's 320 grid points each handle 2000 consecutive edges: point `t` loads rows `2000 t … 2000 t + 1999` of the
  three gathered arrays and the whole 128×128 weight, and writes back rows `2000 t … 2000 t + 1999` of the output. So
  entry `(p, q)` of point `t`'s block is entry `(2000 t + p, q)` of the arrays, the blocks tile the output, and by
  NodePayload's `msg_entry` the output ends as the ONE product of the 640000×128 array `g1 + g2 * g3` with the weight.
  Stated at any contents `V` of the buffers at the region's entry.
-/
import proofs.«166148_j63471026700598_1_alg».proof.Proof.Gen.KernelIdeal.Frame
import proofs.«166148_j63471026700598_1_alg».proof.Proof.NodePayload

set_option maxRecDepth 16384

noncomputable section

namespace Cert.KernelIdeal.MsgValue

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of the rows `g1 + g2 * g3` with the weight `w`: the message of every edge. -/
def msgOf (g1 g2 g3 : FVec Ideal ⟨2, ![640000, 128]⟩ .f32) (w : FVec Ideal ⟨2, ![128, 128]⟩ .f32) :
    FVec Ideal ⟨2, ![640000, 128]⟩ .f32 :=
  FloatOps.dotGeneral (DotDims.plain 640000 128 128) none .single (addf g1 (mulf g2 g3)) w

/-- The printed index maps over the grid: the three gathered arrays and the output move by one block of rows per point,
    the weight stays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block of rows of the output is some point's. -/
theorem idx_onto : ∀ q0 : Fin 320, ∃ t : Fin cfg0.N, win0_4.index t = ![q0.val, 0] :=
  (by decide +kernel : ∀ q0 : Fin 320, ∃ t : Fin grid0.N, win0_4.index t = ![q0.val, 0])

/-- What point `t` writes back is block `t` of the message array of the buffers as the region finds them. -/
theorem flushed_msg (c : Dev nD) (t : Fin cfg0.N) :
    (dat0 V c).flushed 4 t = ((cfg0.win 4).blk t).view.read (Elt Ideal)
      (msgOf (V c main_v22) (V c main_v29) (V c main_v36) (V c main_v37)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz]
  obtain ⟨e00, e01, e10, e11, e20, e21, e30, e31, e40, e41⟩ := idx_facts t
  have ht : t.val < 320 := (show t.val < grid0.N from t.isLt).trans_eq N_0
  funext j
  obtain ⟨p, q, rfl⟩ : ∃ (p : Fin 2000) (q : Fin 128), j = ix2 p q := ⟨j 0, j 1, eq_ix2 j⟩
  have hp : p.val < 2000 := p.isLt
  have hrow : t.val * 2000 + p.val < 640000 := by omega
  have hout : ((cfg0.win 4).blk t).view.emb (ix2 p q) = ix2 (⟨t.val * 2000 + p.val, hrow⟩ : Fin 640000) q := by
    funext a; apply Fin.ext
    match a with
    | ⟨0, _⟩ => show win0_4.index t (0 : Fin 2) * 2000 + 1 * p.val = t.val * 2000 + p.val; omega
    | ⟨1, _⟩ => show win0_4.index t (1 : Fin 2) * 128 + 1 * q.val = q.val; omega
  show k0_pay1 (iblk0 V c 0 t) (iblk0 V c 1 t) (iblk0 V c 2 t) (iblk0 V c 3 t) (ix2 p q)
    = msgOf (V c main_v22) (V c main_v29) (V c main_v36) (V c main_v37) (((cfg0.win 4).blk t).view.emb (ix2 p q))
  rw [hout]
  refine NodePayload.msg_entry _ _ _ _ _ _ _ _ (⟨t.val * 2000 + p.val, hrow⟩ : Fin 640000) p q
    (fun k => ?_) (fun k => ?_) (fun k => ?_) (fun k => ?_)
  · show V c main_v22 (((cfg0.win 0).blk t).view.emb (ix2 p k)) = V c main_v22 (ix2 (⟨t.val * 2000 + p.val, hrow⟩ : Fin 640000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_v29 (((cfg0.win 1).blk t).view.emb (ix2 p k)) = V c main_v29 (ix2 (⟨t.val * 2000 + p.val, hrow⟩ : Fin 640000) k)
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · show V c main_v36 (((cfg0.win 2).blk t).view.emb (ix2 p k)) = V c main_v36 (ix2 (⟨t.val * 2000 + p.val, hrow⟩ : Fin 640000) k)
    refine congrArg _ (funext fun a => Fin.ext ?_)
    match a with
    | ⟨0, _⟩ => show win0_2.index t (0 : Fin 2) * 2000 + 1 * p.val = t.val * 2000 + p.val; omega
    | ⟨1, _⟩ => show win0_2.index t (1 : Fin 2) * 128 + 1 * k.val = k.val; omega
  · show V c main_v37 (((cfg0.win 3).blk t).view.emb (ix2 k q)) = V c main_v37 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega

/-- An index of the output is in point `t`'s block iff each coordinate is in the block's range on its axis. -/
theorem mem_blk (t : Fin cfg0.N) (i : S640000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v38).slice (win0_4.rect t)).set ↔ _
  rw [View.set_slice_whole, Rect.mem_set_unit]
  exact Iff.rfl

/-- The blocks tile the output: row `r` is in the block of point `r / 2000`. -/
theorem cover (i : S640000x128.Idx) :
    ∃ t : Fin cfg0.N, (cfg0.win 4).flush t = true ∧ i ∈ ((cfg0.win 4).blk t).view.set := by
  have hi0 : (i 0).val < 640000 := (i 0).isLt
  have hi1 : (i 1).val < 128 := (i 1).isLt
  obtain ⟨t, ht⟩ := idx_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- The output array after the region: the message array of the buffers as the region found them. -/
theorem final_msg (c : Dev nD) :
    (dat0 V c).arrAt 4 cfg0.N = msgOf (V c main_v22) (V c main_v29) (V c main_v36) (V c main_v37) :=
  (dat0 V c).arrAt_eq_of_cover 4 _ (fun t _ => flushed_msg V c t) cover

end Cert.KernelIdeal.MsgValue

end
-- ==== Proof.EntryValues.lean ====
/-
  What the two kernel regions are entered with, in the reference's own terms.

  The host operations before the first region cast the three tables to bf16 and gather their rows by the (wrapped) source,
  relation and time indices; a change of float format is the identity on the extended reals, so each gathered array IS the
  reference's gather of the uncast table, and the cast weight IS the weight. Hence (MsgValue) the first region leaves the
  reference's message array `(h[src] + rel[type] * time[t]) · W`. The host operations between the regions scatter-sum it
  onto the destination nodes exactly as the reference does, so the second region is entered with the reference's aggregated
  array; with the node features and the norm as launched; with the two self-loop weights (cast, so unchanged); and with a
  mask column that holds, at each node, the number (0 or 1) of the reference's flag "the in-degree is positive".
-/
import proofs.«166148_j63471026700598_1_alg».proof.Proof.Gen.KernelIdeal.Frame
import proofs.«166148_j63471026700598_1_alg».proof.Proof.RefReadP
import proofs.«166148_j63471026700598_1_alg».proof.Proof.MsgValue
import Idealize.ShloMosaic.Lib.StableHlo.Run
import Idealize.ShloMosaic.Lib.Pipeline.Value

set_option maxRecDepth 16384

noncomputable section

namespace Cert.KernelIdeal.EntryValues

open Cert.KernelIdeal Cert.KernelIdeal.Gen Idealize.ShloMosaic Idealize.ShloMosaic.TcCoe Idealize.SL.Sem
open Idealize.ShloMosaic.StableHlo Idealize.ShloMosaic.ValueIdx
open Cert.ReferenceIdeal.ReadP

variable (m : (ℓ : Loc nD τ sig) → Buf (Elt Ideal) ℓ) (ρ : Dev nD → PrngReg)

/-! ## The first region's entry -/

/-- The gathered node features: the reference's `h[src]`. -/
theorem gathered_h (c : Dev nD) : V1 m ρ c main_v22
    = val_main_v21 (F := Ideal) (m ((c : Thread nD τ).loc main_arg0)) (m ((c : Thread nD τ).loc main_arg1)) := by
  show StableHlo.after hostOps0 (W0 m ρ c) (Proc.devRef .tc main_v22) = _
  after_results_simp <;> rfl

/-- The gathered relation embeddings: the reference's `rel_emb[edge_type]`. -/
theorem gathered_rel (c : Dev nD) : V1 m ρ c main_v29
    = val_main_v28 (F := Ideal) (m ((c : Thread nD τ).loc main_arg3)) (m ((c : Thread nD τ).loc main_arg6)) := by
  show StableHlo.after hostOps0 (W0 m ρ c) (Proc.devRef .tc main_v29) = _
  after_results_simp <;> rfl

/-- The gathered time embeddings: the reference's `time_emb[edge_time]`. -/
theorem gathered_time (c : Dev nD) : V1 m ρ c main_v36
    = val_main_v35 (F := Ideal) (m ((c : Thread nD τ).loc main_arg4)) (m ((c : Thread nD τ).loc main_arg7)) := by
  show StableHlo.after hostOps0 (W0 m ρ c) (Proc.devRef .tc main_v36) = _
  after_results_simp <;> rfl

/-- The neighbour weight, cast: the weight. -/
theorem weight_neighbor (c : Dev nD) : V1 m ρ c main_v37 = m ((c : Thread nD τ).loc main_arg8) := by
  show StableHlo.after hostOps0 (W0 m ρ c) (Proc.devRef .tc main_v37) = _
  after_results_simp <;> rfl

/-- The first region leaves the reference's message array. -/
theorem messages (c : Dev nD) : (dat0 (V1 m ρ) c).arrAt 4 cfg0.N
    = val_main_v38 (F := Ideal) (m ((c : Thread nD τ).loc main_arg0)) (m ((c : Thread nD τ).loc main_arg1))
        (m ((c : Thread nD τ).loc main_arg3)) (m ((c : Thread nD τ).loc main_arg4)) (m ((c : Thread nD τ).loc main_arg6))
        (m ((c : Thread nD τ).loc main_arg7)) (m ((c : Thread nD τ).loc main_arg8)) := by
  rw [MsgValue.final_msg, gathered_h, gathered_rel, gathered_time, weight_neighbor]
  rfl

/-! ## Between the regions -/

/-- A buffer neither region 0 nor the host operations before it write holds its launch contents when region 0 is left. -/
theorem kept_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results_simp <;> rfl)
theorem kept_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)
theorem kept_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)
theorem kept_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)
theorem kept_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results_simp <;> rfl)

/-- The message array, where region 0 left it. -/
theorem messages_kept (c : Dev nD) : W2 m ρ c (Proc.devRef .tc main_v38)
    = val_main_v38 (F := Ideal) (m ((c : Thread nD τ).loc main_arg0)) (m ((c : Thread nD τ).loc main_arg1))
        (m ((c : Thread nD τ).loc main_arg3)) (m ((c : Thread nD τ).loc main_arg4)) (m ((c : Thread nD τ).loc main_arg6))
        (m ((c : Thread nD τ).loc main_arg7)) (m ((c : Thread nD τ).loc main_arg8)) :=
  (W2_arr m ρ c 4).trans (messages m ρ c)

/-- The mask column the host operations before region 0 computed, still there when region 0 is left: the reference's
    in-degree flag, converted to a number and put on a column. -/
theorem mask_kept (c : Dev nD) : W2 m ρ c (Proc.devRef .tc main_v12)
    = broadcastInDim S50000x1 ![0] bcast_S50000_S50000x1_0
        (uitofp (F := Ideal) .f32 (val_main_v10 (F := Ideal) (m ((c : Thread nD τ).loc main_arg2)))) :=
  (W2_of_ne m ρ c main_v12 (by decide)).trans (by
    show StableHlo.after hostOps0 (W0 m ρ c) (Proc.devRef .tc main_v12) = _
    after_results_simp <;> rfl)

/-! ## The second region's entry -/

/-- The node features. -/
theorem features (c : Dev nD) : V3 m ρ c main_arg0 = m ((c : Thread nD τ).loc main_arg0) := by
  show StableHlo.after hostOps1 (W2 m ρ c) (Proc.devRef .tc main_arg0) = _
  after_results_simp
  exact kept_arg0 m ρ c

/-- The norm column. -/
theorem norm (c : Dev nD) : V3 m ρ c main_arg5 = m ((c : Thread nD τ).loc main_arg5) := by
  show StableHlo.after hostOps1 (W2 m ρ c) (Proc.devRef .tc main_arg5) = _
  after_results_simp
  exact kept_arg5 m ρ c

/-- The aggregated messages: the reference's scatter-sum onto the destination nodes. -/
theorem aggregated (c : Dev nD) : V3 m ρ c main_v41
    = val_main_v41 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg6)) (m ((c : Thread nD τ).loc main_arg7)) (m ((c : Thread nD τ).loc main_arg8)) := by
  show StableHlo.after hostOps1 (W2 m ρ c) (Proc.devRef .tc main_v41) = _
  after_results_simp
  rw [messages_kept, kept_arg2]
  rfl

/-- The self-loop weight of the nodes with an incoming edge, cast: the weight. -/
theorem loop_weight (c : Dev nD) : V3 m ρ c main_v42 = m ((c : Thread nD τ).loc main_arg9) := by
  show StableHlo.after hostOps1 (W2 m ρ c) (Proc.devRef .tc main_v42) = _
  after_results_simp
  rw [kept_arg9]
  rfl

/-- The self-loop weight of the nodes without one, cast: the weight. -/
theorem evolve_weight (c : Dev nD) : V3 m ρ c main_v43 = m ((c : Thread nD τ).loc main_arg10) := by
  show StableHlo.after hostOps1 (W2 m ρ c) (Proc.devRef .tc main_v43) = _
  after_results_simp
  rw [kept_arg10]
  rfl

/-- The mask column at node `n` is the number of the reference's in-degree flag of `n`. -/
theorem mask (c : Dev nD) (n : Fin 50000) :
    (V3 m ρ c main_v12 (ix2 n (0 : Fin 1)) : EReal)
      = (((val_main_v10 (F := Ideal) (m ((c : Thread nD τ).loc main_arg2)) (ix1 n)).toNat : ℝ) : EReal) := by
  have e : V3 m ρ c main_v12 = broadcastInDim S50000x1 ![0] bcast_S50000_S50000x1_0
      (uitofp (F := Ideal) .f32 (val_main_v10 (F := Ideal) (m ((c : Thread nD τ).loc main_arg2)))) := by
    show StableHlo.after hostOps1 (W2 m ρ c) (Proc.devRef .tc main_v12) = _
    after_results_simp
    exact mask_kept m ρ c
  rw [e]
  refine (broadcastInDim_apply _ bcast_S50000_S50000x1_0 _ (ix2 n (0 : Fin 1)) (ix1 n) (fun a => ?_)).trans rfl
  match a with
  | ⟨0, _⟩ => show n.val = if (50000 : Nat) = 1 then 0 else n.val; rw [if_neg (by decide)]

end Cert.KernelIdeal.EntryValues

end
-- ==== Proof.RefOut.lean ====
/-
  The reference's result at an entry.

  Read one operation at a time, entry `i = (n, j)` of the reference's result is the activation of
  `agg (n, j) * norm (n, 0) + (if c n then (h · LW) (n, j) else (h · EW) (n, j))`, where `agg` is the scatter-sum of the
  messages onto the destination nodes, `c n` the flag "the in-degree of `n` is positive", and the two products are the
  host's: `Blend.node` of those five numbers. The scatter-sums, the gathers and the two products are left as the
  arrays they are; nothing of them is opened.
-/
import proofs.«166148_j63471026700598_1_alg».proof.Proof.RefReadP
import proofs.«166148_j63471026700598_1_alg».proof.Proof.Blend

noncomputable section

namespace Cert.ReferenceIdeal.RefOut

open Cert.ReferenceIdeal Cert.ReferenceIdeal.ReadP Idealize.ShloMosaic Cert.Rgcn

/-- The reference's result at `i` is `Blend.node` of the aggregated message at `i`, the norm of `i`'s row, the in-degree
    flag of `i`'s row and the two self-loop candidates at `i`. -/
theorem ref_entry (x0 : (⟨S50000x128, .f32⟩ : BufTy).Contents (Elt Ideal)) (x1 x2 x3 x4 : (⟨S640000, .i32⟩ : BufTy).Contents (Elt Ideal))
    (x5 : (⟨S50000x1, .f32⟩ : BufTy).Contents (Elt Ideal)) (x6 : (⟨S460x128, .f32⟩ : BufTy).Contents (Elt Ideal))
    (x7 x8 x9 x10 : (⟨S128x128, .f32⟩ : BufTy).Contents (Elt Ideal)) (i : S50000x128.Idx) :
    val_main_v49 (F := Ideal) x0 x1 x2 x3 x4 x5 x6 x7 x8 x9 x10 i
      = Blend.node (val_main_v41 (F := Ideal) x0 x1 x2 x3 x4 x6 x7 x8 i) (x5 (idx_main_v42 i))
          (val_main_v10 (F := Ideal) x2 (idx_main_v11 (idx_main_call0_v0 i)))
          (val_main_v12 (F := Ideal) x0 x9 i) (val_main_v13 (F := Ideal) x0 x10 i) := by
  rw [val_main_v49_apply, val_main_v46_apply, val_main_v48_apply, val_main_v44_apply, val_main_v43_apply,
    val_main_v42_apply, val_main_v14_apply, val_main_call0_v0_apply, val_main_v11_apply, val_main_v45_apply,
    val_main_cst_10_apply, val_main_v47_apply, val_main_cst_11_apply]
  rfl

end Cert.ReferenceIdeal.RefOut

end
-- ==== Proof.Bridge.lean ====
/-
  The two programs compute one array.

  Index by index the layer's output the second kernel region leaves (NodeValue) and the reference's result (RefOut) are
  `Blend.node` of the same five numbers: the aggregated message at the entry, the norm of the entry's row, the in-degree
  flag of the row, and the two whole products `h · loop_weight`, `h · evolve_loop_weight` at the entry. The kernel reaches the
  self-loop term as the blend `m · a + (1 − m) · b` over the flag's number, the reference as the selection by the flag: the
  one law between them is LibFlagBlend's. Everything else the two sides share — the in-degree scatter, the gathers, the message
  product, the scatter-sum — enters as the same arrays (EntryValues) and is never opened.
-/
import proofs.«166148_j63471026700598_1_alg».proof.Proof.NodeValue
import proofs.«166148_j63471026700598_1_alg».proof.Proof.EntryValues
import proofs.«166148_j63471026700598_1_alg».proof.Proof.RefOut

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx Cert.Rgcn
open Cert.ReferenceIdeal.ReadP

/-- The layer's output array, built from the reference's own intermediate arrays, is the reference's result. -/
theorem nodeOf_eq_ref (x0 : (⟨Cert.ReferenceIdeal.S50000x128, .f32⟩ : BufTy).Contents (Elt Ideal))
    (x1 x2 x3 x4 : (⟨Cert.ReferenceIdeal.S640000, .i32⟩ : BufTy).Contents (Elt Ideal))
    (x5 : (⟨Cert.ReferenceIdeal.S50000x1, .f32⟩ : BufTy).Contents (Elt Ideal))
    (x6 : (⟨Cert.ReferenceIdeal.S460x128, .f32⟩ : BufTy).Contents (Elt Ideal))
    (x7 x8 x9 x10 : (⟨Cert.ReferenceIdeal.S128x128, .f32⟩ : BufTy).Contents (Elt Ideal)) :
    NodeValue.nodeOf x0 (val_main_v41 (F := Ideal) x0 x1 x2 x3 x4 x6 x7 x8) x5 (val_main_v10 (F := Ideal) x2) x9 x10
      = val_main_v49 (F := Ideal) x0 x1 x2 x3 x4 x5 x6 x7 x8 x9 x10 := by
  funext i
  obtain ⟨n, j, rfl⟩ : ∃ (n : Fin 50000) (j : Fin 128), i = ix2 n j := ⟨i 0, i 1, eq_ix2 i⟩
  rw [Cert.ReferenceIdeal.RefOut.ref_entry]
  have e42 : idx_main_v42 (ix2 n j) = ix2 n (0 : Fin 1) :=
    funext fun a => Fin.ext (by match a with | ⟨0, _⟩ => rfl | ⟨1, _⟩ => rfl)
  have e11 : idx_main_v11 (idx_main_call0_v0 (ix2 n j)) = ix1 n :=
    funext fun a => Fin.ext (by match a with | ⟨0, _⟩ => rfl)
  rw [e42, e11]
  rfl

variable (m : (ℓ : Loc nD τ sig) → Buf (Elt Ideal) ℓ) (ρ : Dev nD → PrngReg)

/-- What the second region leaves in the result buffer is the reference's result of the launch contents. -/
theorem kernel_result (c : Dev nD) :
    (dat1 (V3 m ρ) c).arrAt 6 cfg1.N = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [NodeValue.final_node (V3 m ρ) c (val_main_v10 (F := Ideal) (m ((c : Thread nD τ).loc main_arg2))) (EntryValues.mask m ρ c)]
  rw [EntryValues.features, EntryValues.aggregated, EntryValues.norm, EntryValues.loop_weight, EntryValues.evolve_weight]
  exact nodeOf_eq_ref _ _ _ _ _ _ _ _ _ _ _

end Cert.KernelIdeal.Bridge

end
-- ==== Proof.lean ====
/-
  The proof of `Cert.Claim`: a relational graph-convolution layer over 50000 nodes and 640000 edges, as two kernels
  among host operations, against its plain reference, on the extended reals.

  Both programs compute, for node `n` and feature `j`,
      act (agg (n, j) * norm n + loop (n, j)),
  `agg` the scatter-sum onto destination nodes of the edge messages `(h[src] + rel[type] * time[t]) · W`, `loop` the row
  `h n · loop_weight` for a node with an incoming edge and `h n · evolve_loop_weight` for one without, `act x` the leaky
  rectifier (`x` for `x ≥ 0`, else `x` times the f32 word `0x3E6AAAAB`).
  The kernel program differs from the reference in three ways, none of which changes an extended real:
  it casts the tables and weights to bf16 before gathering and multiplying (a change of format is the identity);
  it computes each product 2000 rows at a time on the matrix unit, from a zero accumulator (the same sum, term by term:
  LibRowBlock, NodePayload; the blocks tile the arrays: MsgValue, NodeValue);
  and it takes the self-loop term as the blend `m · a + (1 − m) · b` with `m` the in-degree flag's number 0 or 1, where the
  reference selects by the flag (LibFlagBlend: equal for all extended reals, `0 · x = 0` and `x + 0 = x` holding throughout).
  The in-degree scatter, the three gathers and the scatter-sum are the same operations of the same arrays on both
  sides (EntryValues) and are never opened; no finiteness of the inputs is used.

  The frames of the two kernel programs are their generated frame certificates; the reference's frame is its run read
  back (RefRunP) with the result dropped; the ideal pass rewrote nothing, so `preserves` is `True`; `algebraic` is the
  kernel program's run with its result named (KernelRun) beside the reference's run, the two results one array (Bridge).
-/
import proofs.«166148_j63471026700598_1_alg».proof.Defs
import proofs.«166148_j63471026700598_1_alg».proof.Proof.Gen.Kernel
import proofs.«166148_j63471026700598_1_alg».proof.Proof.Gen.Kernel.Frame
import proofs.«166148_j63471026700598_1_alg».proof.Proof.Gen.KernelIdeal
import proofs.«166148_j63471026700598_1_alg».proof.Proof.Gen.KernelIdeal.Frame
import proofs.«166148_j63471026700598_1_alg».proof.Proof.Gen.ReferenceIdeal
import proofs.«166148_j63471026700598_1_alg».proof.Proof.Gen.Pre_finite_inputs
import proofs.«166148_j63471026700598_1_alg».proof.Proof.RefRunP
import proofs.«166148_j63471026700598_1_alg».proof.Proof.RefReadP
import proofs.«166148_j63471026700598_1_alg».proof.Proof.KernelRun
import proofs.«166148_j63471026700598_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments, the kernel program's result buffer and the reference's end at one array:
    the reference's last stage of the launch contents. -/
theorem algebraic : Cert.algebraic_KernelIdeal_ReferenceIdeal := by
  intro m ρ m' ρ' _ hagree
  refine ⟨fun c => (Cert.KernelIdeal.Gen.dat1 (Cert.KernelIdeal.Gen.V3 m ρ) c).arrAt 6 Cert.KernelIdeal.cfg1.N,
    Cert.KernelIdeal.RunOut.run_out m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v49_eq, h0, h1, h2, h3, h4, h5, h6, h7, h8, h9, h10]
  exact (Cert.KernelIdeal.Bridge.kernel_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
